-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S50000x64 : Shape := ⟨2, ![50000, 64]⟩
abbrev S10000x64 : Shape := ⟨2, ![10000, 64]⟩
abbrev S850000x64 : Shape := ⟨2, ![850000, 64]⟩
abbrev S1x64 : Shape := ⟨2, ![1, 64]⟩

abbrev nBuf : Space → Nat
  | .hbm => 95
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .bf16⟩
  | .hbm, ⟨49, _⟩ => ⟨S128x128, .bf16⟩
  | .hbm, ⟨50, _⟩ => ⟨S50000x128, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S50000x128, .bf16⟩
  | .hbm, ⟨74, _⟩ => ⟨S128x64, .bf16⟩
  | .hbm, ⟨75, _⟩ => ⟨S50000x64, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x64, .f32⟩
  | .hbm, ⟨85, _⟩ => ⟨S850000x1, .f32⟩
  | .hbm, ⟨86, _⟩ => ⟨S850000x64, .f32⟩
  | .hbm, ⟨87, _⟩ => ⟨S850000x64, .f32⟩
  | .hbm, ⟨88, _⟩ => ⟨S_, .f32⟩
  | .hbm, ⟨89, _⟩ => ⟨S50000x64, .f32⟩
  | .hbm, ⟨90, _⟩ => ⟨S850000x1, .i32⟩
  | .hbm, ⟨91, _⟩ => ⟨S50000x64, .f32⟩
  | .hbm, ⟨92, _⟩ => ⟨S1x64, .f32⟩
  | .hbm, ⟨93, _⟩ => ⟨S50000x64, .f32⟩
  | .hbm, ⟨94, _⟩ => ⟨S50000x64, .f32⟩
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S10000x128, .f32⟩
  | .local _ .vmem, ⟨4, _⟩ => ⟨S10000x128, .f32⟩
  | .local _ .vmem, ⟨5, _⟩ => ⟨S10000x128, .bf16⟩
  | .local _ .vmem, ⟨6, _⟩ => ⟨S10000x128, .bf16⟩
  | .local _ .vmem, ⟨7, _⟩ => ⟨S128x64, .bf16⟩
  | .local _ .vmem, ⟨8, _⟩ => ⟨S10000x64, .f32⟩
  | .local _ .vmem, ⟨9, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x64_S10000x64_1_0_0_1_n_n_wf : DotDims.WF S10000x128 S128x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .bf16 = 32 ∨ (Rect.block (s := S50000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .bf16 = 32 ∨ (Rect.block (s := S50000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_v31) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 126
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x128, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x64, .f32⟩
  | .hbm, ⟨72, _⟩ => ⟨S_, .f32⟩
  | .hbm, ⟨73, _⟩ => ⟨S850000, .f32⟩
  | .hbm, ⟨74, _⟩ => ⟨S_, .f32⟩
  | .hbm, ⟨75, _⟩ => ⟨S50000, .f32⟩
  | .hbm, ⟨76, _⟩ => ⟨S850000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .i1⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .f32⟩
  | .hbm, ⟨85, _⟩ => ⟨S_, .f32⟩
  | .hbm, ⟨86, _⟩ => ⟨S50000, .f32⟩
  | .hbm, ⟨87, _⟩ => ⟨S50000, .f32⟩
  | .hbm, ⟨88, _⟩ => ⟨S_, .i32⟩
  | .hbm, ⟨89, _⟩ => ⟨S850000, .i32⟩
  | .hbm, ⟨90, _⟩ => ⟨S850000, .i1⟩
  | .hbm, ⟨91, _⟩ => ⟨S_, .i32⟩
  | .hbm, ⟨92, _⟩ => ⟨S850000, .i32⟩
  | .hbm, ⟨93, _⟩ => ⟨S850000, .i32⟩
  | .hbm, ⟨94, _⟩ => ⟨S850000, .i32⟩
  | .hbm, ⟨95, _⟩ => ⟨S850000x1, .i32⟩
  | .hbm, ⟨96, _⟩ => ⟨S850000, .f32⟩
  | .hbm, ⟨97, _⟩ => ⟨S_, .i32⟩
  | .hbm, ⟨98, _⟩ => ⟨S850000, .i32⟩
  | .hbm, ⟨99, _⟩ => ⟨S850000, .i1⟩
  | .hbm, ⟨100, _⟩ => ⟨S_, .i32⟩
  | .hbm, ⟨101, _⟩ => ⟨S850000, .i32⟩
  | .hbm, ⟨102, _⟩ => ⟨S850000, .i32⟩
  | .hbm, ⟨103, _⟩ => ⟨S850000, .i32⟩
  | .hbm, ⟨104, _⟩ => ⟨S850000x1, .i32⟩
  | .hbm, ⟨105, _⟩ => ⟨S850000, .f32⟩
  | .hbm, ⟨106, _⟩ => ⟨S850000, .f32⟩
  | .hbm, ⟨107, _⟩ => ⟨S_, .i32⟩
  | .hbm, ⟨108, _⟩ => ⟨S850000, .i32⟩
  | .hbm, ⟨109, _⟩ => ⟨S850000, .i1⟩
  | .hbm, ⟨110, _⟩ => ⟨S_, .i32⟩
  | .hbm, ⟨111, _⟩ => ⟨S850000, .i32⟩
  | .hbm, ⟨112, _⟩ => ⟨S850000, .i32⟩
  | .hbm, ⟨113, _⟩ => ⟨S850000, .i32⟩
  | .hbm, ⟨114, _⟩ => ⟨S850000x1, .i32⟩
  | .hbm, ⟨115, _⟩ => ⟨S850000x64, .f32⟩
  | .hbm, ⟨116, _⟩ => ⟨S850000x1, .f32⟩
  | .hbm, ⟨117, _⟩ => ⟨S850000x64, .f32⟩
  | .hbm, ⟨118, _⟩ => ⟨S850000x64, .f32⟩
  | .hbm, ⟨119, _⟩ => ⟨S_, .f32⟩
  | .hbm, ⟨120, _⟩ => ⟨S50000x64, .f32⟩
  | .hbm, ⟨121, _⟩ => ⟨S850000x1, .i32⟩
  | .hbm, ⟨122, _⟩ => ⟨S50000x64, .f32⟩
  | .hbm, ⟨123, _⟩ => ⟨S1x64, .f32⟩
  | .hbm, ⟨124, _⟩ => ⟨S50000x64, .f32⟩
  | .hbm, ⟨125, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_cst_14 : Ref sig .tc := ⟨.hbm, 84, rfl⟩
abbrev main_call2_v0 : Ref sig .tc := ⟨.hbm, 85, rfl⟩
abbrev main_call2_v1 : Ref sig .tc := ⟨.hbm, 86, rfl⟩
abbrev main_v58 : Ref sig .tc := ⟨.hbm, 87, rfl⟩
abbrev main_c_15 : Ref sig .tc := ⟨.hbm, 88, rfl⟩
abbrev main_v59 : Ref sig .tc := ⟨.hbm, 89, rfl⟩
abbrev main_v60 : Ref sig .tc := ⟨.hbm, 90, rfl⟩
abbrev main_c_16 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_17 : Ref sig .tc := ⟨.hbm, 97, rfl⟩
abbrev main_v66 : Ref sig .tc := ⟨.hbm, 98, rfl⟩
abbrev main_v67 : Ref sig .tc := ⟨.hbm, 99, rfl⟩
abbrev main_c_18 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_19 : Ref sig .tc := ⟨.hbm, 107, rfl⟩
abbrev main_v74 : Ref sig .tc := ⟨.hbm, 108, rfl⟩
abbrev main_v75 : Ref sig .tc := ⟨.hbm, 109, rfl⟩
abbrev main_c_20 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_21 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel program run whole, with the contents of every buffer named.

  The program is nine segments: three stretches of host operations, the first matrix product's
  grid, three more stretches, the second matrix product's grid, and a last stretch.  The buffer
  contents at each boundary are a fold from the launch memory (`Gen.W0` … `Gen.W9`).  Every weakly
  fair execution ends with each unscoped buffer at the last fold `Gen.W9`; here that is read at the
  result buffer as well as at the six arguments.
-/
import proofs.«164262_j19756849561887_1_alg».proof.Proof.Gen.KernelIdeal.Frame

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then
    holds the last fold's contents and the arguments are as launched. -/
theorem run : θ_run defs (onTc (τ := τ) (main (F := F))) ⟨m, fun _ => 0, ρ⟩ (fun r => ∀ c : Dev nD,
      r.2.mem ((c.tc : Thread nD τ).loc main_v69) = W9 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v69 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.HostA.lean ====
/-
  The kernel program's host operations before the first matrix product, read against the reference's stages.

  From any buffer contents `Wp` whose edge-list buffer holds `a1`, the first stretch leaves the source and
  the destination ids (each a row of the edge list followed by the self loops 0 … n-1), the test
  `degree > 0` and the power `degree ^ (-1/2)`, the degree being the scatter-add of ones over the destinations;
  the outlined `where` then selects the power or zero; the third stretch gathers that vector at the source and
  at the destination ids (a negative id wrapped by n first), multiplies the two — the edge weights — and rounds
  the features and the first weight matrix to bf16.  Each is the very operation, on the very operands, that
  the reference program applies, so each equation closes by unfolding the reference's stage.
  (The operands of an outlined function travel through a transport along an equation of buffer types that is
  `rfl` at a literal buffer: `cast_eq` removes it.)
-/
import proofs.«164262_j19756849561887_1_alg».proof.Proof.Gen.KernelIdeal.Frame
import proofs.«164262_j19756849561887_1_alg».proof.Proof.RefRead

noncomputable section

namespace Cert.KernelIdeal.HostA

open Idealize.ShloMosaic Idealize.ShloMosaic.TcCoe Idealize.ShloMosaic.Tactic
open Idealize.SL Idealize.SL.Sem
open Idealize.ShloMosaic.StableHlo (after after_cons after_nil nullary_result' unary_result' binary_result' ternary_result' quaternary_result' reshape_result' nary4_result' nary_result' unaryIndexed_result' binaryIndexed_result' nullary_result_ne' unary_result_ne' binary_result_ne' ternary_result_ne' quaternary_result_ne' reshape_result_ne' nary_result_ne' unaryIndexed_result_ne' binaryIndexed_result_ne')
open Cert.KernelIdeal Cert.KernelIdeal.Gen
open Cert.ReferenceIdeal.ReadP (val_main_v3 val_main_v6 val_main_v13 val_main_v15 val_main_cst_3 val_main_v16 val_main_v31)

variable (Wp : Valuation τ sig (Elt Ideal))
variable (a0 : (⟨S50000x128, .f32⟩ : BufTy).Contents (Elt Ideal)) (a1 : (⟨S2x800000, .i32⟩ : BufTy).Contents (Elt Ideal)) (a2 : (⟨S128x128, .f32⟩ : BufTy).Contents (Elt Ideal))

/-! ## The first stretch: ids, degree test and power -/

/-- The source ids. -/
theorem src (h1 : Wp (Proc.devRef .tc main_arg1) = a1) :
    after (hostOps0 (F := Ideal)) Wp (Proc.devRef .tc main_v3) = val_main_v3 (F := Ideal) a1 := by
  dsimp only [hostOps0]
  after_results
  rw [h1]
  rfl

/-- The destination ids. -/
theorem dst (h1 : Wp (Proc.devRef .tc main_arg1) = a1) :
    after (hostOps0 (F := Ideal)) Wp (Proc.devRef .tc main_v6) = val_main_v6 (F := Ideal) a1 := by
  dsimp only [hostOps0]
  after_results
  rw [h1]
  rfl

/-- The test `degree > 0`. -/
theorem degPos (h1 : Wp (Proc.devRef .tc main_arg1) = a1) :
    after (hostOps0 (F := Ideal)) Wp (Proc.devRef .tc main_v12) = val_main_v13 (F := Ideal) a1 := by
  dsimp only [hostOps0]
  after_results
  rw [h1]
  rfl

/-- The power `degree ^ (-1/2)`. -/
theorem degPow (h1 : Wp (Proc.devRef .tc main_arg1) = a1) :
    after (hostOps0 (F := Ideal)) Wp (Proc.devRef .tc main_v14) = val_main_v15 (F := Ideal) a1 := by
  dsimp only [hostOps0]
  after_results
  rw [h1]
  rfl

/-- The zero the `where` falls back to. -/
theorem zero : after (hostOps0 (F := Ideal)) Wp (Proc.devRef .tc main_cst_3) = val_main_cst_3 (F := Ideal) := by
  dsimp only [hostOps0]
  after_results_simp
  rfl

/-- The stretch writes none of these buffers. -/
theorem keep1 : ∀ b ∈ [main_arg0, main_arg2, main_arg3, main_arg4, main_arg5], after (hostOps0 (F := Ideal)) Wp (Proc.devRef .tc b) = Wp (Proc.devRef .tc b) := by
  intro b hb
  simp only [List.mem_cons, List.mem_nil_iff, or_false] at hb
  rcases hb with rfl | rfl | rfl | rfl | rfl <;> (dsimp only [hostOps0]; after_results_simp)

/-! ## The outlined `where` -/

/-- The inverse square root of the degree, zero where the degree is not positive. -/
theorem dis (h12 : Wp (Proc.devRef .tc main_v12) = val_main_v13 (F := Ideal) a1) (h14 : Wp (Proc.devRef .tc main_v14) = val_main_v15 (F := Ideal) a1) (hz : Wp (Proc.devRef .tc main_cst_3) = val_main_cst_3 (F := Ideal)) :
    after (hostOps0_1 (F := Ideal)) Wp (Proc.devRef .tc main_v15) = val_main_v16 (F := Ideal) a1 := by
  dsimp only [hostOps0_1]
  after_results_simp
  simp only [StableHlo.TRef.toBuf, StableHlo.TRef.ofBuf, cast_eq]
  rw [h12, h14, hz]
  rfl

/-- The stretch writes none of these buffers. -/
theorem keep2 : ∀ b ∈ [main_v3, main_v6, main_arg0, main_arg2, main_arg3, main_arg4, main_arg5], after (hostOps0_1 (F := Ideal)) Wp (Proc.devRef .tc b) = Wp (Proc.devRef .tc b) := by
  intro b hb
  simp only [List.mem_cons, List.mem_nil_iff, or_false] at hb
  rcases hb with rfl | rfl | rfl | rfl | rfl | rfl | rfl <;> (dsimp only [hostOps0_1]; after_results_simp)

/-! ## The third stretch: the edge weights and the rounded operands -/

/-- The edge weights: the vector above at the source id times itself at the destination id. -/
theorem weights (h15 : Wp (Proc.devRef .tc main_v15) = val_main_v16 (F := Ideal) a1) (h3 : Wp (Proc.devRef .tc main_v3) = val_main_v3 (F := Ideal) a1) (h6 : Wp (Proc.devRef .tc main_v6) = val_main_v6 (F := Ideal) a1) :
    after (hostOps0_2 (F := Ideal)) Wp (Proc.devRef .tc main_v30) = val_main_v31 (F := Ideal) a1 := by
  dsimp only [hostOps0_2]
  after_results_simp
  rw [h15, h3, h6]
  rfl

/-- The features rounded to bf16. -/
theorem xRounded (h0 : Wp (Proc.devRef .tc main_arg0) = a0) :
    after (hostOps0_2 (F := Ideal)) Wp (Proc.devRef .tc main_v31) = (truncf .bf16 (a0 : FVec Ideal S50000x128 .f32) bitsLt_bf16_f32 : FVec Ideal S50000x128 .bf16) := by
  dsimp only [hostOps0_2]
  after_results_simp
  rw [h0]

/-- The first weight matrix rounded to bf16. -/
theorem wRounded (h2 : Wp (Proc.devRef .tc main_arg2) = a2) :
    after (hostOps0_2 (F := Ideal)) Wp (Proc.devRef .tc main_v32) = (truncf .bf16 (a2 : FVec Ideal S128x128 .f32) bitsLt_bf16_f32 : FVec Ideal S128x128 .bf16) := by
  dsimp only [hostOps0_2]
  after_results_simp
  rw [h2]

/-- The stretch writes none of these buffers. -/
theorem keep3 : ∀ b ∈ [main_v3, main_v6, main_arg3, main_arg4, main_arg5], after (hostOps0_2 (F := Ideal)) Wp (Proc.devRef .tc b) = Wp (Proc.devRef .tc b) := by
  intro b hb
  simp only [List.mem_cons, List.mem_nil_iff, or_false] at hb
  rcases hb with rfl | rfl | rfl | rfl | rfl <;> (dsimp only [hostOps0_2]; after_results_simp)

end Cert.KernelIdeal.HostA

end
-- ==== Proof.HostB.lean ====
/-
  The kernel program's host operations between the two matrix products, read against the reference's stages.

  From any buffer contents `Wp` whose first product's array holds `x · W1` and whose id and weight buffers
  hold the reference's, the stretch gathers the product's rows at the source ids, scales row e by weight e,
  scatter-adds the rows over the destination ids and adds the bias: the first layer's aggregate, the
  reference's stage.  The outlined `relu` takes the maximum with zero, and the last stretch rounds that
  and the second weight matrix to bf16.
-/
import proofs.«164262_j19756849561887_1_alg».proof.Proof.Gen.KernelIdeal.Frame
import proofs.«164262_j19756849561887_1_alg».proof.Proof.RefRead

noncomputable section

namespace Cert.KernelIdeal.HostB

open Idealize.ShloMosaic Idealize.ShloMosaic.TcCoe Idealize.ShloMosaic.Tactic
open Idealize.SL Idealize.SL.Sem
open Idealize.ShloMosaic.StableHlo (after after_cons after_nil nullary_result' unary_result' binary_result' ternary_result' quaternary_result' reshape_result' nary4_result' nary_result' unaryIndexed_result' binaryIndexed_result' nullary_result_ne' unary_result_ne' binary_result_ne' ternary_result_ne' quaternary_result_ne' reshape_result_ne' nary_result_ne' unaryIndexed_result_ne' binaryIndexed_result_ne')
open Cert.KernelIdeal Cert.KernelIdeal.Gen
open Cert.ReferenceIdeal.ReadP (val_main_v3 val_main_v6 val_main_v31 val_main_v7 val_main_v47 val_main_v48)

variable (Wp : Valuation τ sig (Elt Ideal))
variable (a0 : (⟨S50000x128, .f32⟩ : BufTy).Contents (Elt Ideal)) (a1 : (⟨S2x800000, .i32⟩ : BufTy).Contents (Elt Ideal)) (a2 : (⟨S128x128, .f32⟩ : BufTy).Contents (Elt Ideal)) (a3 : (⟨S128, .f32⟩ : BufTy).Contents (Elt Ideal)) (a4 : (⟨S128x64, .f32⟩ : BufTy).Contents (Elt Ideal))

/-! ## The aggregation -/

/-- The first layer before the activation: the aggregated rows plus the bias. -/
theorem layer1 (h33 : Wp (Proc.devRef .tc main_v33) = val_main_v7 (F := Ideal) a0 a2) (h3 : Wp (Proc.devRef .tc main_v3) = val_main_v3 (F := Ideal) a1) (h6 : Wp (Proc.devRef .tc main_v6) = val_main_v6 (F := Ideal) a1) (h30 : Wp (Proc.devRef .tc main_v30) = val_main_v31 (F := Ideal) a1) (hb : Wp (Proc.devRef .tc main_arg3) = a3) :
    after (hostOps1 (F := Ideal)) Wp (Proc.devRef .tc main_v49) = val_main_v47 (F := Ideal) a0 a1 a2 a3 := by
  dsimp only [hostOps1]
  after_results_simp
  rw [h33, h3, h6, h30, hb]
  rfl

/-- The stretch writes none of these buffers. -/
theorem keep1 : ∀ b ∈ [main_v3, main_v6, main_v30, main_arg4, main_arg5], after (hostOps1 (F := Ideal)) Wp (Proc.devRef .tc b) = Wp (Proc.devRef .tc b) := by
  intro b hb
  simp only [List.mem_cons, List.mem_nil_iff, or_false] at hb
  rcases hb with rfl | rfl | rfl | rfl | rfl <;> (dsimp only [hostOps1]; after_results_simp)

/-! ## The outlined `relu` -/

/-- The first layer: the maximum with zero. -/
theorem hidden (h49 : Wp (Proc.devRef .tc main_v49) = val_main_v47 (F := Ideal) a0 a1 a2 a3) :
    after (hostOps1_1 (F := Ideal)) Wp (Proc.devRef .tc main_v50) = val_main_v48 (F := Ideal) a0 a1 a2 a3 := by
  dsimp only [hostOps1_1]
  after_results_simp
  simp only [StableHlo.TRef.toBuf, StableHlo.TRef.ofBuf, cast_eq]
  rw [h49]
  rfl

/-- The stretch writes none of these buffers. -/
theorem keep2 : ∀ b ∈ [main_v3, main_v6, main_v30, main_arg4, main_arg5], after (hostOps1_1 (F := Ideal)) Wp (Proc.devRef .tc b) = Wp (Proc.devRef .tc b) := by
  intro b hb
  simp only [List.mem_cons, List.mem_nil_iff, or_false] at hb
  rcases hb with rfl | rfl | rfl | rfl | rfl <;> (dsimp only [hostOps1_1]; after_results_simp)

/-! ## The rounded operands of the second product -/

/-- The first layer rounded to bf16. -/
theorem hRounded (h50 : Wp (Proc.devRef .tc main_v50) = val_main_v48 (F := Ideal) a0 a1 a2 a3) :
    after (hostOps1_2 (F := Ideal)) Wp (Proc.devRef .tc main_v51) = (truncf .bf16 (val_main_v48 (F := Ideal) a0 a1 a2 a3 : FVec Ideal S50000x128 .f32) bitsLt_bf16_f32 : FVec Ideal S50000x128 .bf16) := by
  dsimp only [hostOps1_2]
  after_results_simp
  rw [h50]

/-- The second weight matrix rounded to bf16. -/
theorem wRounded (h4 : Wp (Proc.devRef .tc main_arg4) = a4) :
    after (hostOps1_2 (F := Ideal)) Wp (Proc.devRef .tc main_v52) = (truncf .bf16 (a4 : FVec Ideal S128x64 .f32) bitsLt_bf16_f32 : FVec Ideal S128x64 .bf16) := by
  dsimp only [hostOps1_2]
  after_results_simp
  rw [h4]

/-- The stretch writes none of these buffers. -/
theorem keep3 : ∀ b ∈ [main_v3, main_v6, main_v30, main_arg5], after (hostOps1_2 (F := Ideal)) Wp (Proc.devRef .tc b) = Wp (Proc.devRef .tc b) := by
  intro b hb
  simp only [List.mem_cons, List.mem_nil_iff, or_false] at hb
  rcases hb with rfl | rfl | rfl | rfl <;> (dsimp only [hostOps1_2]; after_results_simp)

end Cert.KernelIdeal.HostB

end
-- ==== Proof.HostC.lean ====
/-
  The kernel program's host operations after the second matrix product, read against the reference's last stage.

  The reference computes the degrees, their inverse square roots and the edge weights a second time for its
  second layer, by the same operations on the same ids: the two weight vectors are one function of the edge
  list.  The kernel program computes them once and uses them twice.  With that, the last stretch — gather the
  second product's rows at the source ids, scale by the weights, scatter-add over the destination ids, add the
  bias — is the reference's last stage.
-/
import proofs.«164262_j19756849561887_1_alg».proof.Proof.Gen.KernelIdeal.Frame
import proofs.«164262_j19756849561887_1_alg».proof.Proof.RefRead

noncomputable section

namespace Cert.KernelIdeal.HostC

open Idealize.ShloMosaic Idealize.ShloMosaic.TcCoe Idealize.ShloMosaic.Tactic
open Idealize.SL Idealize.SL.Sem
open Idealize.ShloMosaic.StableHlo (after after_cons after_nil nullary_result' unary_result' binary_result' ternary_result' quaternary_result' reshape_result' nary4_result' nary_result' unaryIndexed_result' binaryIndexed_result' nullary_result_ne' unary_result_ne' binary_result_ne' ternary_result_ne' quaternary_result_ne' reshape_result_ne' nary_result_ne' unaryIndexed_result_ne' binaryIndexed_result_ne')
open Cert.KernelIdeal Cert.KernelIdeal.Gen
open Cert.ReferenceIdeal.ReadP (val_main_v3 val_main_v6 val_main_v31 val_main_v73 val_main_v49 val_main_v89)

variable (Wp : Valuation τ sig (Elt Ideal))
variable (a0 : (⟨S50000x128, .f32⟩ : BufTy).Contents (Elt Ideal)) (a1 : (⟨S2x800000, .i32⟩ : BufTy).Contents (Elt Ideal)) (a2 : (⟨S128x128, .f32⟩ : BufTy).Contents (Elt Ideal)) (a3 : (⟨S128, .f32⟩ : BufTy).Contents (Elt Ideal)) (a4 : (⟨S128x64, .f32⟩ : BufTy).Contents (Elt Ideal)) (a5 : (⟨S64, .f32⟩ : BufTy).Contents (Elt Ideal))

/-- The reference's second computation of the edge weights is its first: the same operations of the same ids. -/
theorem weights_again : val_main_v73 (F := Ideal) a1 = val_main_v31 (F := Ideal) a1 := rfl

/-- The result: the second layer's aggregated rows plus its bias. -/
theorem layer2 (h53 : Wp (Proc.devRef .tc main_v53) = val_main_v49 (F := Ideal) a0 a1 a2 a3 a4) (h3 : Wp (Proc.devRef .tc main_v3) = val_main_v3 (F := Ideal) a1) (h6 : Wp (Proc.devRef .tc main_v6) = val_main_v6 (F := Ideal) a1) (h30 : Wp (Proc.devRef .tc main_v30) = val_main_v73 (F := Ideal) a1) (hb : Wp (Proc.devRef .tc main_arg5) = a5) :
    after (hostOps2 (F := Ideal)) Wp (Proc.devRef .tc main_v69) = val_main_v89 (F := Ideal) a0 a1 a2 a3 a4 a5 := by
  dsimp only [hostOps2]
  after_results_simp
  rw [h53, h3, h6, h30, hb]
  rfl

end Cert.KernelIdeal.HostC

end
-- ==== Proof.Product0.lean ====
/-
  The first matrix product, read as one array.

  The grid has five points; point t multiplies rows 10000·t … 10000·t + 9999 of the left array
  (all 128 columns) by the whole right array (128 × 128) into the zero accumulator and writes the
  10000 × 128 block back at rows 10000·t ….  The accumulator being zero, entry (p, q) of a block is
  the plain sum over k of left (p, k) · right (k, q) on the extended reals; the row of the block is
  row 10000·t + p of the array, the five blocks tile the 50000 rows, and so the array the grid leaves
  is the whole product: entry (i₀, i₁) is the sum over k of left (i₀, k) · right (k, i₁).
  Nothing here needs the entries to be finite.
-/
import proofs.«164262_j19756849561887_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Product0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable (V : (c : Dev nD) → (b : Ref sig .tc) → Buf (Elt Ideal) ((c : Thread nD τ).loc b))

theorem hz : (![0, 0] : Fin 2 → Nat) = fun _ => 0 := funext fun a => by fin_cases a <;> rfl

/-! ## The whole product -/

/-- Row `i 0`, column `k` of the left array. -/
abbrev leftAt (i : S50000x128.Idx) (k : Fin 128) : S50000x128.Idx := fun a => match a with
  | ⟨0, _⟩ => ⟨(i 0).val, (i 0).isLt⟩
  | ⟨1, _⟩ => ⟨k.val, k.isLt⟩
/-- Row `k`, column `i 1` of the right array. -/
abbrev rightAt (i : S50000x128.Idx) (k : Fin 128) : S128x128.Idx := fun a => match a with
  | ⟨0, _⟩ => ⟨k.val, k.isLt⟩
  | ⟨1, _⟩ => ⟨(i 1).val, (i 1).isLt⟩

/-- The product of a 50000 × 128 array by a 128 × 128 array on the extended reals, entry by entry. -/
def product (a : (⟨S50000x128, .bf16⟩ : BufTy).Contents (Elt Ideal)) (w : (⟨S128x128, .bf16⟩ : BufTy).Contents (Elt Ideal)) :
    (⟨S50000x128, .f32⟩ : BufTy).Contents (Elt Ideal) :=
  fun i => ∑ k : Fin 128, (a (leftAt i k) : EReal) * (w (rightAt i k) : EReal)

/-! ## One block -/

/-- Row `j 0`, column `k` of the left block. -/
abbrev blkLeft (j : S10000x128.Idx) (k : Fin 128) : S10000x128.Idx := fun a => match a with
  | ⟨0, _⟩ => ⟨(j 0).val, (j 0).isLt⟩
  | ⟨1, _⟩ => ⟨k.val, k.isLt⟩
/-- Row `k`, column `j 1` of the right array. -/
abbrev blkRight (j : S10000x128.Idx) (k : Fin 128) : S128x128.Idx := fun a => match a with
  | ⟨0, _⟩ => ⟨k.val, k.isLt⟩
  | ⟨1, _⟩ => ⟨(j 1).val, (j 1).isLt⟩

theorem lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- What the body stores at entry `j` of its block: the sum over `k` of left (j₀, k) · right (k, j₁). The two
    shape casts are to the shape the operand already has, and the accumulator is the zero splat. -/
theorem payload_apply (x0 : Vec Ideal S10000x128 .bf16) (x1 : Vec Ideal S128x128 .bf16) (j : S10000x128.Idx) :
    k0_pay1 (F := Ideal) x0 x1 j = ∑ k : Fin 128, (x0 (blkLeft j k) : EReal) * (x1 (blkRight j k) : EReal) := by
  unfold k0_pay1
  rw [shapeCast_self, shapeCast_self]
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = blkLeft j k := funext fun a => Fin.ext (by
    match a with
    | ⟨0, _⟩ => exact lhs_0 _ _
    | ⟨1, _⟩ => exact (lhs_1 _ _).trans hk)
  have er : dot_S10000x128_S128x128_S10000x128_1_0_0_1_n_n.rhsIdx j ((ValueIdx.contrEquiv1 dot_S10000x128_S128x128_S10000x128_1_0_0_1_n_n 128 rfl rfl).symm k) = blkRight j k := funext fun a => Fin.ext (by
    match a with
    | ⟨0, _⟩ => exact (rhs_0 _ _).trans hk
    | ⟨1, _⟩ => exact rhs_1 _ _)
  rw [el, er]

/-! ## From the blocks to the array -/

/-- The index maps over the grid: the left window moves with the output window along the rows and stays at
    column block 0; the right window never moves; the output window is at column block 0 and at a row block
    below five. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 4 :=
  (by decide +kernel : ∀ t : Fin grid0.N, _)

/-- Every row block is some point's. -/
theorem idx_onto : ∀ (q0 : Fin 5), ∃ t : Fin cfg0.N, win0_2.index t = ![q0.val, 0] :=
  (by decide +kernel : ∀ (q0 : Fin 5), ∃ t : Fin grid0.N, win0_2.index t = ![q0.val, 0])

/-- What point `t` writes back is block `t` of the whole product of the arrays the grid finds. -/
theorem flushed_eq (c : Dev nD) (t : Fin cfg0.N) :
    (dat0 V c).flushed 2 t = ((cfg0.win 2).blk t).view.read (Elt Ideal) (product (V c main_v31) (V c main_v32)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  funext j
  show k0_pay1 (F := Ideal) (iblk0 V c 0 t) (iblk0 V c 1 t) j = product (V c main_v31) (V c main_v32) (((cfg0.win 2).blk t).view.emb j)
  refine (payload_apply _ _ j).trans ?_
  unfold product
  refine Finset.sum_congr rfl fun k _ => ?_
  have h0 : ((cfg0.win 0).blk t).view.emb (blkLeft j k) = leftAt (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (blkRight j k) = rightAt (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have g0 : iblk0 V c 0 t (blkLeft j k) = V c main_v31 (leftAt (((cfg0.win 2).blk t).view.emb j) k) := by
    show V c main_v31 (((cfg0.win 0).blk t).view.emb (blkLeft j k)) = _
    rw [h0]
  have g1 : iblk0 V c 1 t (blkRight j k) = V c main_v32 (rightAt (((cfg0.win 2).blk t).view.emb j) k) := by
    show V c main_v32 (((cfg0.win 1).blk t).view.emb (blkRight j k)) = _
    rw [h1]
  rw [g0, g1]

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v33).slice (win0_2.rect t)).set ↔ _
  rw [View.set_slice_whole, Rect.mem_set_unit]
  exact Iff.rfl

/-- Row `r` of the array is in the block of the point at row block `r / 10000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The array the grid leaves is the whole product of the arrays it found. -/
theorem final (c : Dev nD) : (dat0 V c).arrAt 2 cfg0.N = product (V c main_v31) (V c main_v32) :=
  (dat0 V c).arrAt_eq_of_cover 2 _ (fun t _ => flushed_eq V c t) cover

end Cert.KernelIdeal.Product0

end
-- ==== Proof.Product1.lean ====
/-
  The second matrix product, read as one array.

  The grid has five points; point t multiplies rows 10000·t … 10000·t + 9999 of the left array
  (all 128 columns) by the whole right array (128 × 64) into the zero accumulator and writes the
  10000 × 64 block back at rows 10000·t ….  The accumulator being zero, entry (p, q) of a block is
  the plain sum over k of left (p, k) · right (k, q) on the extended reals; the row of the block is
  row 10000·t + p of the array, the five blocks tile the 50000 rows, and so the array the grid leaves
  is the whole product: entry (i₀, i₁) is the sum over k of left (i₀, k) · right (k, i₁).
  Nothing here needs the entries to be finite.
-/
import proofs.«164262_j19756849561887_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Product1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Facts₀ Cert.KernelIdeal.Facts

variable (V : (c : Dev nD) → (b : Ref sig .tc) → Buf (Elt Ideal) ((c : Thread nD τ).loc b))

theorem hz : (![0, 0] : Fin 2 → Nat) = fun _ => 0 := funext fun a => by fin_cases a <;> rfl

/-! ## The whole product -/

/-- Row `i 0`, column `k` of the left array. -/
abbrev leftAt (i : S50000x64.Idx) (k : Fin 128) : S50000x128.Idx := fun a => match a with
  | ⟨0, _⟩ => ⟨(i 0).val, (i 0).isLt⟩
  | ⟨1, _⟩ => ⟨k.val, k.isLt⟩
/-- Row `k`, column `i 1` of the right array. -/
abbrev rightAt (i : S50000x64.Idx) (k : Fin 128) : S128x64.Idx := fun a => match a with
  | ⟨0, _⟩ => ⟨k.val, k.isLt⟩
  | ⟨1, _⟩ => ⟨(i 1).val, (i 1).isLt⟩

/-- The product of a 50000 × 128 array by a 128 × 64 array on the extended reals, entry by entry. -/
def product (a : (⟨S50000x128, .bf16⟩ : BufTy).Contents (Elt Ideal)) (w : (⟨S128x64, .bf16⟩ : BufTy).Contents (Elt Ideal)) :
    (⟨S50000x64, .f32⟩ : BufTy).Contents (Elt Ideal) :=
  fun i => ∑ k : Fin 128, (a (leftAt i k) : EReal) * (w (rightAt i k) : EReal)

/-! ## One block -/

/-- Row `j 0`, column `k` of the left block. -/
abbrev blkLeft (j : S10000x64.Idx) (k : Fin 128) : S10000x128.Idx := fun a => match a with
  | ⟨0, _⟩ => ⟨(j 0).val, (j 0).isLt⟩
  | ⟨1, _⟩ => ⟨k.val, k.isLt⟩
/-- Row `k`, column `j 1` of the right array. -/
abbrev blkRight (j : S10000x64.Idx) (k : Fin 128) : S128x64.Idx := fun a => match a with
  | ⟨0, _⟩ => ⟨k.val, k.isLt⟩
  | ⟨1, _⟩ => ⟨(j 1).val, (j 1).isLt⟩

theorem lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- What the body stores at entry `j` of its block: the sum over `k` of left (j₀, k) · right (k, j₁). The two
    shape casts are to the shape the operand already has, and the accumulator is the zero splat. -/
theorem payload_apply (x0 : Vec Ideal S10000x128 .bf16) (x1 : Vec Ideal S128x64 .bf16) (j : S10000x64.Idx) :
    k1_pay1 (F := Ideal) x0 x1 j = ∑ k : Fin 128, (x0 (blkLeft j k) : EReal) * (x1 (blkRight j k) : EReal) := by
  unfold k1_pay1
  rw [shapeCast_self, shapeCast_self]
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = blkLeft j k := funext fun a => Fin.ext (by
    match a with
    | ⟨0, _⟩ => exact lhs_0 _ _
    | ⟨1, _⟩ => exact (lhs_1 _ _).trans hk)
  have er : dot_S10000x128_S128x64_S10000x64_1_0_0_1_n_n.rhsIdx j ((ValueIdx.contrEquiv1 dot_S10000x128_S128x64_S10000x64_1_0_0_1_n_n 128 rfl rfl).symm k) = blkRight j k := funext fun a => Fin.ext (by
    match a with
    | ⟨0, _⟩ => exact (rhs_0 _ _).trans hk
    | ⟨1, _⟩ => exact rhs_1 _ _)
  rw [el, er]

/-! ## From the blocks to the array -/

/-- The index maps over the grid: the left window moves with the output window along the rows and stays at
    column block 0; the right window never moves; the output window is at column block 0 and at a row block
    below five. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 4 :=
  (by decide +kernel : ∀ t : Fin grid1.N, _)

/-- Every row block is some point's. -/
theorem idx_onto : ∀ (q0 : Fin 5), ∃ t : Fin cfg1.N, win1_2.index t = ![q0.val, 0] :=
  (by decide +kernel : ∀ (q0 : Fin 5), ∃ t : Fin grid1.N, win1_2.index t = ![q0.val, 0])

/-- What point `t` writes back is block `t` of the whole product of the arrays the grid finds. -/
theorem flushed_eq (c : Dev nD) (t : Fin cfg1.N) :
    (dat1 V c).flushed 2 t = ((cfg1.win 2).blk t).view.read (Elt Ideal) (product (V c main_v51) (V c main_v52)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x64) hz]
  obtain ⟨e0, e1, e2, e3, e4, e5⟩ := idx_facts t
  funext j
  show k1_pay1 (F := Ideal) (iblk1 V c 0 t) (iblk1 V c 1 t) j = product (V c main_v51) (V c main_v52) (((cfg1.win 2).blk t).view.emb j)
  refine (payload_apply _ _ j).trans ?_
  unfold product
  refine Finset.sum_congr rfl fun k _ => ?_
  have h0 : ((cfg1.win 0).blk t).view.emb (blkLeft j k) = leftAt (((cfg1.win 2).blk t).view.emb j) k := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  have h1 : ((cfg1.win 1).blk t).view.emb (blkRight j k) = rightAt (((cfg1.win 2).blk t).view.emb j) k := by
    funext a; apply Fin.ext
    match a with
    | ⟨0, _⟩ => show win1_1.index t (0 : Fin 2) * 128 + 1 * k.val = k.val; omega
    | ⟨1, _⟩ => show win1_1.index t (1 : Fin 2) * 64 + 1 * (j 1).val = win1_2.index t (1 : Fin 2) * 64 + 1 * (j 1).val; omega
  have g0 : iblk1 V c 0 t (blkLeft j k) = V c main_v51 (leftAt (((cfg1.win 2).blk t).view.emb j) k) := by
    show V c main_v51 (((cfg1.win 0).blk t).view.emb (blkLeft j k)) = _
    rw [h0]
  have g1 : iblk1 V c 1 t (blkRight j k) = V c main_v52 (rightAt (((cfg1.win 2).blk t).view.emb j) k) := by
    show V c main_v52 (((cfg1.win 1).blk t).view.emb (blkRight j k)) = _
    rw [h1]
  rw [g0, g1]

/-- An index of the array is in point `t`'s block iff each coordinate is in the block's range on its axis. -/
theorem mem_blk (t : Fin cfg1.N) (i : S50000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v53).slice (win1_2.rect t)).set ↔ _
  rw [View.set_slice_whole, Rect.mem_set_unit]
  exact Iff.rfl

/-- Row `r` of the array is in the block of the point at row block `r / 10000`. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The array the grid leaves is the whole product of the arrays it found. -/
theorem final (c : Dev nD) : (dat1 V c).arrAt 2 cfg1.N = product (V c main_v51) (V c main_v52) :=
  (dat1 V c).arrAt_eq_of_cover 2 _ (fun t _ => flushed_eq V c t) cover

end Cert.KernelIdeal.Product1

end
-- ==== Proof.Dot.lean ====
/-
  The kernel's two matrix products are the reference's two `dot_general`s.

  On the extended reals a rounding to bf16 is the identity, the kernel's product into the zero accumulator is
  the plain sum over k of left (i₀, k) · right (k, i₁), and so is the host's `dot_general` with one contracted
  axis: the two arrays are equal entry by entry, whatever the entries are.
-/
import proofs.«164262_j19756849561887_1_alg».proof.Proof.Product0
import proofs.«164262_j19756849561887_1_alg».proof.Proof.Product1
import proofs.«164262_j19756849561887_1_alg».proof.Proof.RefRead

noncomputable section

namespace Cert.KernelIdeal.Dot

open Idealize.ShloMosaic Idealize.ShloMosaic.TcCoe
open Cert.KernelIdeal Cert.KernelIdeal.Gen
open Cert.ReferenceIdeal.ReadP (val_main_v7 val_main_v7_apply lidx_main_v7 ridx_main_v7 val_main_v48 val_main_v49 val_main_v49_apply lidx_main_v49 ridx_main_v49)

/-- The first product of the rounded features and the rounded first weight matrix is the reference's `x · W1`. -/
theorem first (a0 : (⟨S50000x128, .f32⟩ : BufTy).Contents (Elt Ideal)) (a2 : (⟨S128x128, .f32⟩ : BufTy).Contents (Elt Ideal)) :
    Product0.product (truncf .bf16 (a0 : FVec Ideal S50000x128 .f32) bitsLt_bf16_f32 : FVec Ideal S50000x128 .bf16) (truncf .bf16 (a2 : FVec Ideal S128x128 .f32) bitsLt_bf16_f32 : FVec Ideal S128x128 .bf16) = val_main_v7 (F := Ideal) a0 a2 := by
  funext i
  refine Eq.trans ?_ (val_main_v7_apply a0 a2 i).symm
  unfold Product0.product
  refine Finset.sum_congr rfl fun k _ => ?_
  have el : Product0.leftAt i k = lidx_main_v7 i k := funext fun a => by match a with | ⟨0, _⟩ => rfl | ⟨1, _⟩ => rfl
  have er : Product0.rightAt i k = ridx_main_v7 i k := funext fun a => by match a with | ⟨0, _⟩ => rfl | ⟨1, _⟩ => rfl
  rw [el, er]
  rfl

/-- The second product of the rounded hidden layer and the rounded second weight matrix is the reference's `h · W2`. -/
theorem second (a0 : (⟨S50000x128, .f32⟩ : BufTy).Contents (Elt Ideal)) (a1 : (⟨S2x800000, .i32⟩ : BufTy).Contents (Elt Ideal)) (a2 : (⟨S128x128, .f32⟩ : BufTy).Contents (Elt Ideal)) (a3 : (⟨S128, .f32⟩ : BufTy).Contents (Elt Ideal)) (a4 : (⟨S128x64, .f32⟩ : BufTy).Contents (Elt Ideal)) :
    Product1.product (truncf .bf16 (val_main_v48 (F := Ideal) a0 a1 a2 a3 : FVec Ideal S50000x128 .f32) bitsLt_bf16_f32 : FVec Ideal S50000x128 .bf16) (truncf .bf16 (a4 : FVec Ideal S128x64 .f32) bitsLt_bf16_f32 : FVec Ideal S128x64 .bf16) = val_main_v49 (F := Ideal) a0 a1 a2 a3 a4 := by
  funext i
  refine Eq.trans ?_ (val_main_v49_apply a0 a1 a2 a3 a4 i).symm
  unfold Product1.product
  generalize val_main_v48 (F := Ideal) a0 a1 a2 a3 = h
  refine Finset.sum_congr rfl fun k _ => ?_
  have el : Product1.leftAt i k = lidx_main_v49 i k := funext fun a => by match a with | ⟨0, _⟩ => rfl | ⟨1, _⟩ => rfl
  have er : Product1.rightAt i k = ridx_main_v49 i k := funext fun a => by match a with | ⟨0, _⟩ => rfl | ⟨1, _⟩ => rfl
  rw [el, er]
  rfl

end Cert.KernelIdeal.Dot

end
-- ==== Proof.KernelValue.lean ====
/-
  The idealized kernel program's result is the reference's last stage of the launch contents.

  The contents of the buffers that matter are followed from the launch through the nine segments: the ids and
  the edge weights, written before the first grid, stay as written (no later operation and no grid writes
  them); the first grid's output array is the whole product `x · W1`; the stretch after it leaves the hidden
  layer, whose rounding the second grid multiplies by the rounded `W2`; the second grid's output array is the
  whole product `h · W2`; and the last stretch aggregates it into the result.  At every step the value is the
  reference's stage of the same name of the argument arrays.
-/
import proofs.«164262_j19756849561887_1_alg».proof.Proof.KernelRun
import proofs.«164262_j19756849561887_1_alg».proof.Proof.HostA
import proofs.«164262_j19756849561887_1_alg».proof.Proof.HostB
import proofs.«164262_j19756849561887_1_alg».proof.Proof.HostC
import proofs.«164262_j19756849561887_1_alg».proof.Proof.Dot

noncomputable section

namespace Cert.KernelIdeal.Value

open Idealize.ShloMosaic Idealize.ShloMosaic.TcCoe
open Idealize.SL Idealize.SL.Sem
open Cert.KernelIdeal Cert.KernelIdeal.Gen
open Cert.ReferenceIdeal.ReadP (val_main_v3 val_main_v6 val_main_v13 val_main_v15 val_main_cst_3 val_main_v16 val_main_v31 val_main_v7 val_main_v47 val_main_v48 val_main_v49 val_main_v73 val_main_v89)

variable (m : (ℓ : Loc nD τ sig) → Buf (Elt Ideal) ℓ) (ρ : Dev nD → PrngReg)

/-- The last fold's contents of the result buffer. -/
theorem result (c : Dev nD) :
    W9 m ρ c (Proc.devRef .tc main_v69) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have w0_a0 : W0 m ρ c (Proc.devRef .tc main_arg0) = (m ((c : Thread nD τ).loc main_arg0)) := rfl
  have w0_a1 : W0 m ρ c (Proc.devRef .tc main_arg1) = (m ((c : Thread nD τ).loc main_arg1)) := rfl
  have w0_a2 : W0 m ρ c (Proc.devRef .tc main_arg2) = (m ((c : Thread nD τ).loc main_arg2)) := rfl
  have w0_a3 : W0 m ρ c (Proc.devRef .tc main_arg3) = (m ((c : Thread nD τ).loc main_arg3)) := rfl
  have w0_a4 : W0 m ρ c (Proc.devRef .tc main_arg4) = (m ((c : Thread nD τ).loc main_arg4)) := rfl
  have w0_a5 : W0 m ρ c (Proc.devRef .tc main_arg5) = (m ((c : Thread nD τ).loc main_arg5)) := rfl
  -- after the first stretch
  have w1_v3 : W1 m ρ c (Proc.devRef .tc main_v3) = val_main_v3 (F := Ideal) (m ((c : Thread nD τ).loc main_arg1)) := HostA.src (W0 m ρ c) _ w0_a1
  have w1_v6 : W1 m ρ c (Proc.devRef .tc main_v6) = val_main_v6 (F := Ideal) (m ((c : Thread nD τ).loc main_arg1)) := HostA.dst (W0 m ρ c) _ w0_a1
  have w1_v12 : W1 m ρ c (Proc.devRef .tc main_v12) = val_main_v13 (F := Ideal) (m ((c : Thread nD τ).loc main_arg1)) := HostA.degPos (W0 m ρ c) _ w0_a1
  have w1_v14 : W1 m ρ c (Proc.devRef .tc main_v14) = val_main_v15 (F := Ideal) (m ((c : Thread nD τ).loc main_arg1)) := HostA.degPow (W0 m ρ c) _ w0_a1
  have w1_z : W1 m ρ c (Proc.devRef .tc main_cst_3) = val_main_cst_3 (F := Ideal) := HostA.zero (W0 m ρ c)
  have w1_a0 : W1 m ρ c (Proc.devRef .tc main_arg0) = (m ((c : Thread nD τ).loc main_arg0)) := (HostA.keep1 (W0 m ρ c) main_arg0 (by decide)).trans w0_a0
  have w1_a2 : W1 m ρ c (Proc.devRef .tc main_arg2) = (m ((c : Thread nD τ).loc main_arg2)) := (HostA.keep1 (W0 m ρ c) main_arg2 (by decide)).trans w0_a2
  have w1_a3 : W1 m ρ c (Proc.devRef .tc main_arg3) = (m ((c : Thread nD τ).loc main_arg3)) := (HostA.keep1 (W0 m ρ c) main_arg3 (by decide)).trans w0_a3
  have w1_a4 : W1 m ρ c (Proc.devRef .tc main_arg4) = (m ((c : Thread nD τ).loc main_arg4)) := (HostA.keep1 (W0 m ρ c) main_arg4 (by decide)).trans w0_a4
  have w1_a5 : W1 m ρ c (Proc.devRef .tc main_arg5) = (m ((c : Thread nD τ).loc main_arg5)) := (HostA.keep1 (W0 m ρ c) main_arg5 (by decide)).trans w0_a5
  -- after the outlined where
  have w2_v15 : W2 m ρ c (Proc.devRef .tc main_v15) = val_main_v16 (F := Ideal) (m ((c : Thread nD τ).loc main_arg1)) := HostA.dis (W1 m ρ c) _ w1_v12 w1_v14 w1_z
  have w2_v3 : W2 m ρ c (Proc.devRef .tc main_v3) = val_main_v3 (F := Ideal) (m ((c : Thread nD τ).loc main_arg1)) := (HostA.keep2 (W1 m ρ c) main_v3 (by decide)).trans w1_v3
  have w2_v6 : W2 m ρ c (Proc.devRef .tc main_v6) = val_main_v6 (F := Ideal) (m ((c : Thread nD τ).loc main_arg1)) := (HostA.keep2 (W1 m ρ c) main_v6 (by decide)).trans w1_v6
  have w2_a0 : W2 m ρ c (Proc.devRef .tc main_arg0) = (m ((c : Thread nD τ).loc main_arg0)) := (HostA.keep2 (W1 m ρ c) main_arg0 (by decide)).trans w1_a0
  have w2_a2 : W2 m ρ c (Proc.devRef .tc main_arg2) = (m ((c : Thread nD τ).loc main_arg2)) := (HostA.keep2 (W1 m ρ c) main_arg2 (by decide)).trans w1_a2
  have w2_a3 : W2 m ρ c (Proc.devRef .tc main_arg3) = (m ((c : Thread nD τ).loc main_arg3)) := (HostA.keep2 (W1 m ρ c) main_arg3 (by decide)).trans w1_a3
  have w2_a4 : W2 m ρ c (Proc.devRef .tc main_arg4) = (m ((c : Thread nD τ).loc main_arg4)) := (HostA.keep2 (W1 m ρ c) main_arg4 (by decide)).trans w1_a4
  have w2_a5 : W2 m ρ c (Proc.devRef .tc main_arg5) = (m ((c : Thread nD τ).loc main_arg5)) := (HostA.keep2 (W1 m ρ c) main_arg5 (by decide)).trans w1_a5
  -- at the first grid's entry
  have w3_v30 : W3 m ρ c (Proc.devRef .tc main_v30) = val_main_v31 (F := Ideal) (m ((c : Thread nD τ).loc main_arg1)) := HostA.weights (W2 m ρ c) _ w2_v15 w2_v3 w2_v6
  have w3_v31 : W3 m ρ c (Proc.devRef .tc main_v31) = (truncf .bf16 ((m ((c : Thread nD τ).loc main_arg0)) : FVec Ideal S50000x128 .f32) bitsLt_bf16_f32 : FVec Ideal S50000x128 .bf16) := HostA.xRounded (W2 m ρ c) _ w2_a0
  have w3_v32 : W3 m ρ c (Proc.devRef .tc main_v32) = (truncf .bf16 ((m ((c : Thread nD τ).loc main_arg2)) : FVec Ideal S128x128 .f32) bitsLt_bf16_f32 : FVec Ideal S128x128 .bf16) := HostA.wRounded (W2 m ρ c) _ w2_a2
  have w3_v3 : W3 m ρ c (Proc.devRef .tc main_v3) = val_main_v3 (F := Ideal) (m ((c : Thread nD τ).loc main_arg1)) := (HostA.keep3 (W2 m ρ c) main_v3 (by decide)).trans w2_v3
  have w3_v6 : W3 m ρ c (Proc.devRef .tc main_v6) = val_main_v6 (F := Ideal) (m ((c : Thread nD τ).loc main_arg1)) := (HostA.keep3 (W2 m ρ c) main_v6 (by decide)).trans w2_v6
  have w3_a3 : W3 m ρ c (Proc.devRef .tc main_arg3) = (m ((c : Thread nD τ).loc main_arg3)) := (HostA.keep3 (W2 m ρ c) main_arg3 (by decide)).trans w2_a3
  have w3_a4 : W3 m ρ c (Proc.devRef .tc main_arg4) = (m ((c : Thread nD τ).loc main_arg4)) := (HostA.keep3 (W2 m ρ c) main_arg4 (by decide)).trans w2_a4
  have w3_a5 : W3 m ρ c (Proc.devRef .tc main_arg5) = (m ((c : Thread nD τ).loc main_arg5)) := (HostA.keep3 (W2 m ρ c) main_arg5 (by decide)).trans w2_a5
  -- at the first grid's exit: its output array is the whole product, every other buffer as entered
  have w4_v33 : W4 m ρ c (Proc.devRef .tc main_v33) = val_main_v7 (F := Ideal) (m ((c : Thread nD τ).loc main_arg0)) (m ((c : Thread nD τ).loc main_arg2)) := by
    refine (W4_arr m ρ c 2).trans ((Product0.final (V3 m ρ) c).trans ?_)
    have e31 : V3 m ρ c main_v31 = (truncf .bf16 ((m ((c : Thread nD τ).loc main_arg0)) : FVec Ideal S50000x128 .f32) bitsLt_bf16_f32 : FVec Ideal S50000x128 .bf16) := w3_v31
    have e32 : V3 m ρ c main_v32 = (truncf .bf16 ((m ((c : Thread nD τ).loc main_arg2)) : FVec Ideal S128x128 .f32) bitsLt_bf16_f32 : FVec Ideal S128x128 .bf16) := w3_v32
    rw [e31, e32]
    exact Dot.first _ _
  have w4_v3 : W4 m ρ c (Proc.devRef .tc main_v3) = val_main_v3 (F := Ideal) (m ((c : Thread nD τ).loc main_arg1)) := (W4_of_ne m ρ c main_v3 (by decide)).trans w3_v3
  have w4_v6 : W4 m ρ c (Proc.devRef .tc main_v6) = val_main_v6 (F := Ideal) (m ((c : Thread nD τ).loc main_arg1)) := (W4_of_ne m ρ c main_v6 (by decide)).trans w3_v6
  have w4_v30 : W4 m ρ c (Proc.devRef .tc main_v30) = val_main_v31 (F := Ideal) (m ((c : Thread nD τ).loc main_arg1)) := (W4_of_ne m ρ c main_v30 (by decide)).trans w3_v30
  have w4_a3 : W4 m ρ c (Proc.devRef .tc main_arg3) = (m ((c : Thread nD τ).loc main_arg3)) := (W4_of_ne m ρ c main_arg3 (by decide)).trans w3_a3
  have w4_a4 : W4 m ρ c (Proc.devRef .tc main_arg4) = (m ((c : Thread nD τ).loc main_arg4)) := (W4_of_ne m ρ c main_arg4 (by decide)).trans w3_a4
  have w4_a5 : W4 m ρ c (Proc.devRef .tc main_arg5) = (m ((c : Thread nD τ).loc main_arg5)) := (W4_of_ne m ρ c main_arg5 (by decide)).trans w3_a5
  -- the aggregation, the activation, the rounding
  have w5_v49 : W5 m ρ c (Proc.devRef .tc main_v49) = val_main_v47 (F := Ideal) (m ((c : Thread nD τ).loc main_arg0)) (m ((c : Thread nD τ).loc main_arg1)) (m ((c : Thread nD τ).loc main_arg2)) (m ((c : Thread nD τ).loc main_arg3)) := HostB.layer1 (W4 m ρ c) _ _ _ _ w4_v33 w4_v3 w4_v6 w4_v30 w4_a3
  have w5_v3 : W5 m ρ c (Proc.devRef .tc main_v3) = val_main_v3 (F := Ideal) (m ((c : Thread nD τ).loc main_arg1)) := (HostB.keep1 (W4 m ρ c) main_v3 (by decide)).trans w4_v3
  have w5_v6 : W5 m ρ c (Proc.devRef .tc main_v6) = val_main_v6 (F := Ideal) (m ((c : Thread nD τ).loc main_arg1)) := (HostB.keep1 (W4 m ρ c) main_v6 (by decide)).trans w4_v6
  have w5_v30 : W5 m ρ c (Proc.devRef .tc main_v30) = val_main_v31 (F := Ideal) (m ((c : Thread nD τ).loc main_arg1)) := (HostB.keep1 (W4 m ρ c) main_v30 (by decide)).trans w4_v30
  have w5_a4 : W5 m ρ c (Proc.devRef .tc main_arg4) = (m ((c : Thread nD τ).loc main_arg4)) := (HostB.keep1 (W4 m ρ c) main_arg4 (by decide)).trans w4_a4
  have w5_a5 : W5 m ρ c (Proc.devRef .tc main_arg5) = (m ((c : Thread nD τ).loc main_arg5)) := (HostB.keep1 (W4 m ρ c) main_arg5 (by decide)).trans w4_a5
  have w6_v50 : W6 m ρ c (Proc.devRef .tc main_v50) = val_main_v48 (F := Ideal) (m ((c : Thread nD τ).loc main_arg0)) (m ((c : Thread nD τ).loc main_arg1)) (m ((c : Thread nD τ).loc main_arg2)) (m ((c : Thread nD τ).loc main_arg3)) := HostB.hidden (W5 m ρ c) _ _ _ _ w5_v49
  have w6_v3 : W6 m ρ c (Proc.devRef .tc main_v3) = val_main_v3 (F := Ideal) (m ((c : Thread nD τ).loc main_arg1)) := (HostB.keep2 (W5 m ρ c) main_v3 (by decide)).trans w5_v3
  have w6_v6 : W6 m ρ c (Proc.devRef .tc main_v6) = val_main_v6 (F := Ideal) (m ((c : Thread nD τ).loc main_arg1)) := (HostB.keep2 (W5 m ρ c) main_v6 (by decide)).trans w5_v6
  have w6_v30 : W6 m ρ c (Proc.devRef .tc main_v30) = val_main_v31 (F := Ideal) (m ((c : Thread nD τ).loc main_arg1)) := (HostB.keep2 (W5 m ρ c) main_v30 (by decide)).trans w5_v30
  have w6_a4 : W6 m ρ c (Proc.devRef .tc main_arg4) = (m ((c : Thread nD τ).loc main_arg4)) := (HostB.keep2 (W5 m ρ c) main_arg4 (by decide)).trans w5_a4
  have w6_a5 : W6 m ρ c (Proc.devRef .tc main_arg5) = (m ((c : Thread nD τ).loc main_arg5)) := (HostB.keep2 (W5 m ρ c) main_arg5 (by decide)).trans w5_a5
  have w7_v51 : W7 m ρ c (Proc.devRef .tc main_v51) = (truncf .bf16 (val_main_v48 (F := Ideal) (m ((c : Thread nD τ).loc main_arg0)) (m ((c : Thread nD τ).loc main_arg1)) (m ((c : Thread nD τ).loc main_arg2)) (m ((c : Thread nD τ).loc main_arg3)) : FVec Ideal S50000x128 .f32) bitsLt_bf16_f32 : FVec Ideal S50000x128 .bf16) := HostB.hRounded (W6 m ρ c) _ _ _ _ w6_v50
  have w7_v52 : W7 m ρ c (Proc.devRef .tc main_v52) = (truncf .bf16 ((m ((c : Thread nD τ).loc main_arg4)) : FVec Ideal S128x64 .f32) bitsLt_bf16_f32 : FVec Ideal S128x64 .bf16) := HostB.wRounded (W6 m ρ c) _ w6_a4
  have w7_v3 : W7 m ρ c (Proc.devRef .tc main_v3) = val_main_v3 (F := Ideal) (m ((c : Thread nD τ).loc main_arg1)) := (HostB.keep3 (W6 m ρ c) main_v3 (by decide)).trans w6_v3
  have w7_v6 : W7 m ρ c (Proc.devRef .tc main_v6) = val_main_v6 (F := Ideal) (m ((c : Thread nD τ).loc main_arg1)) := (HostB.keep3 (W6 m ρ c) main_v6 (by decide)).trans w6_v6
  have w7_v30 : W7 m ρ c (Proc.devRef .tc main_v30) = val_main_v31 (F := Ideal) (m ((c : Thread nD τ).loc main_arg1)) := (HostB.keep3 (W6 m ρ c) main_v30 (by decide)).trans w6_v30
  have w7_a5 : W7 m ρ c (Proc.devRef .tc main_arg5) = (m ((c : Thread nD τ).loc main_arg5)) := (HostB.keep3 (W6 m ρ c) main_arg5 (by decide)).trans w6_a5
  -- at the second grid's exit
  have w8_v53 : W8 m ρ c (Proc.devRef .tc main_v53) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
    refine (W8_arr m ρ c 2).trans ((Product1.final (V7 m ρ) c).trans ?_)
    have e51 : V7 m ρ c main_v51 = (truncf .bf16 (val_main_v48 (F := Ideal) (m ((c : Thread nD τ).loc main_arg0)) (m ((c : Thread nD τ).loc main_arg1)) (m ((c : Thread nD τ).loc main_arg2)) (m ((c : Thread nD τ).loc main_arg3)) : FVec Ideal S50000x128 .f32) bitsLt_bf16_f32 : FVec Ideal S50000x128 .bf16) := w7_v51
    have e52 : V7 m ρ c main_v52 = (truncf .bf16 ((m ((c : Thread nD τ).loc main_arg4)) : FVec Ideal S128x64 .f32) bitsLt_bf16_f32 : FVec Ideal S128x64 .bf16) := w7_v52
    rw [e51, e52]
    exact Dot.second _ _ _ _ _
  have w8_v3 : W8 m ρ c (Proc.devRef .tc main_v3) = val_main_v3 (F := Ideal) (m ((c : Thread nD τ).loc main_arg1)) := (W8_of_ne m ρ c main_v3 (by decide)).trans w7_v3
  have w8_v6 : W8 m ρ c (Proc.devRef .tc main_v6) = val_main_v6 (F := Ideal) (m ((c : Thread nD τ).loc main_arg1)) := (W8_of_ne m ρ c main_v6 (by decide)).trans w7_v6
  have w8_v30 : W8 m ρ c (Proc.devRef .tc main_v30) = val_main_v31 (F := Ideal) (m ((c : Thread nD τ).loc main_arg1)) := (W8_of_ne m ρ c main_v30 (by decide)).trans w7_v30
  have w8_a5 : W8 m ρ c (Proc.devRef .tc main_arg5) = (m ((c : Thread nD τ).loc main_arg5)) := (W8_of_ne m ρ c main_arg5 (by decide)).trans w7_a5
  -- the last stretch
  exact HostC.layer2 (W8 m ρ c) _ _ _ _ _ _ w8_v53 w8_v3 w8_v6 (w8_v30.trans (HostC.weights_again _).symm) w8_a5

/-- Every weakly fair execution of the idealized kernel program terminates without a fault, with the result at the
    reference's last stage of the launch contents and the arguments as launched. -/
theorem run : θ_run defs (onTc (τ := τ) (main (F := Ideal))) ⟨m, fun _ => 0, ρ⟩ (fun r => ∀ c : Dev nD,
      r.2.mem ((c.tc : Thread nD τ).loc main_v69) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (Cert.KernelIdeal.Whole.run m ρ)

end Cert.KernelIdeal.Value

end
-- ==== Proof.lean ====
/-
  A two-layer graph convolution: the kernel program against its reference, on the extended reals.

  Both programs add the self loops to the edge list, take the degree of every node as the number of edges
  that end there, weight edge e by deg(src e)^(-1/2) · deg(dst e)^(-1/2) (zero where a degree is not
  positive), and compute, twice, `aggregate (h · W) + b`: row e of `h · W` gathered at the edge's source, scaled
  by the edge's weight and added into the row of its destination; a relu sits between the two layers.
  The reference multiplies on the host (`dot_general`) and computes the edge weights once per layer; the
  kernel program rounds the operands to bf16, multiplies on a grid of five row blocks into a zero
  accumulator, and computes the edge weights once.

  On the extended reals a rounding is the identity and each grid leaves the whole product, entry by entry the
  same finite sum as the host's (Product0, Product1, Dot); every other operation is the same operation on the
  same operands in the two programs, and the reference's second computation of the edge weights is its first
  (HostA, HostB, HostC).  So the kernel program's result is the reference's last stage of the arguments
  (KernelValue), which is what the reference's run leaves.  No law used needs a finite entry: the
  precondition is not opened.

  The ideal pass rewrote nothing (`preserves` is `True`); the kernel programs' frames are the generated ones,
  and the reference, a host program, keeps its arguments by its run.
-/
import proofs.«164262_j19756849561887_1_alg».proof.Defs
import proofs.«164262_j19756849561887_1_alg».proof.Proof.Gen.Kernel
import proofs.«164262_j19756849561887_1_alg».proof.Proof.Gen.Kernel.Frame
import proofs.«164262_j19756849561887_1_alg».proof.Proof.Gen.KernelIdeal
import proofs.«164262_j19756849561887_1_alg».proof.Proof.Gen.KernelIdeal.Frame
import proofs.«164262_j19756849561887_1_alg».proof.Proof.Gen.ReferenceIdeal
import proofs.«164262_j19756849561887_1_alg».proof.Proof.Gen.Pre_finite_inputs
import proofs.«164262_j19756849561887_1_alg».proof.Proof.RefRun
import proofs.«164262_j19756849561887_1_alg».proof.Proof.RefRead
import proofs.«164262_j19756849561887_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end at the reference's last stage of the arguments, which agree. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v89_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
